-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2000000x64 .f32) (main_arg1 : FVec F S64x64 .f32) (main_arg2 : FVec F S64 .f32) (main_arg3 : FVec F S64 .f32) (main_arg4 : FVec F S64 .f32) (main_arg5 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S1x64 : Shape := ⟨2, ![1, 64]⟩
abbrev S8000x64 : Shape := ⟨2, ![8000, 64]⟩
abbrev S8000 : Shape := ⟨1, ![8000]⟩
abbrev S8000x1 : Shape := ⟨2, ![8000, 1]⟩

abbrev nBuf : Space → Nat
  | .hbm => 10
  | .vmem => 8
  | .smem => 0
  | _ => 0

abbrev bufTy : (tb : Table) → Fin (tcTables nBuf tb) → BufTy
  | .hbm, ⟨0, _⟩ => ⟨S2000000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2000000, .i32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S2000000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S2000000x64.size a
  hwx0_5 : ∀ i : grid0.Coords, EltTy.bits .f32 = 32 ∨ (Rect.block (s := S2000000x64) S8000x64.size (cc0_transform_5 i) (hinb0_5 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S64x64 : Shape := ⟨2, ![64, 64]⟩
abbrev S64 : Shape := ⟨1, ![64]⟩
abbrev S2000000 : Shape := ⟨1, ![2000000]⟩
abbrev S1x64 : Shape := ⟨2, ![1, 64]⟩
abbrev S_ : Shape := ⟨0, ![]⟩
abbrev S2000000x1 : Shape := ⟨2, ![2000000, 1]⟩

abbrev nBuf : Space → Nat
  | .hbm => 46
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2000000, .i32⟩
  | .hbm, ⟨6, _⟩ => ⟨S2000000x64, .f32⟩
  | .hbm, ⟨7, _⟩ => ⟨S1x64, .f32⟩
  | .hbm, ⟨8, _⟩ => ⟨S2000000x64, .f32⟩
  | .hbm, ⟨9, _⟩ => ⟨S2000000x64, .f32⟩
  | .hbm, ⟨10, _⟩ => ⟨S_, .f32⟩
  | .hbm, ⟨11, _⟩ => ⟨S2000000, .f32⟩
  | .hbm, ⟨12, _⟩ => ⟨S2000000x1, .f32⟩
  | .hbm, ⟨13, _⟩ => ⟨S_, .f32⟩
  | .hbm, ⟨14, _⟩ => ⟨S2000000x1, .f32⟩
  | .hbm, ⟨15, _⟩ => ⟨S2000000x1, .f32⟩
  | .hbm, ⟨16, _⟩ => ⟨S2000000x64, .f32⟩
  | .hbm, ⟨17, _⟩ => ⟨S2000000x64, .f32⟩
  | .hbm, ⟨18, _⟩ => ⟨S2000000x64, .f32⟩
  | .hbm, ⟨19, _⟩ => ⟨S_, .f32⟩
  | .hbm, ⟨20, _⟩ => ⟨S2000000, .f32⟩
  | .hbm, ⟨21, _⟩ => ⟨S2000000x1, .f32⟩
  | .hbm, ⟨22, _⟩ => ⟨S_, .f32⟩
  | .hbm, ⟨23, _⟩ => ⟨S2000000x1, .f32⟩
  | .hbm, ⟨24, _⟩ => ⟨S2000000x1, .f32⟩
  | .hbm, ⟨25, _⟩ => ⟨S2000000x64, .f32⟩
  | .hbm, ⟨26, _⟩ => ⟨S2000000x64, .f32⟩
  | .hbm, ⟨27, _⟩ => ⟨S_, .f32⟩
  | .hbm, ⟨28, _⟩ => ⟨S2000000x1, .f32⟩
  | .hbm, ⟨29, _⟩ => ⟨S2000000x1, .f32⟩
  | .hbm, ⟨30, _⟩ => ⟨S2000000x1, .f32⟩
  | .hbm, ⟨31, _⟩ => ⟨S2000000x64, .f32⟩
  | .hbm, ⟨32, _⟩ => ⟨S2000000x64, .f32⟩
  | .hbm, ⟨33, _⟩ => ⟨S1x64, .f32⟩
  | .hbm, ⟨34, _⟩ => ⟨S2000000x64, .f32⟩
  | .hbm, ⟨35, _⟩ => ⟨S2000000x64, .f32⟩
  | .hbm, ⟨36, _⟩ => ⟨S1x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S2000000x64, .f32⟩
  | .hbm, ⟨41, _⟩ => ⟨S2000000x64, .i1⟩
  | .hbm, ⟨42, _⟩ => ⟨S_, .f32⟩
  | .hbm, ⟨43, _⟩ => ⟨S2000000x64, .f32⟩
  | .hbm, ⟨44, _⟩ => ⟨S2000000x64, .f32⟩
  | .hbm, ⟨45, _⟩ => ⟨S2000000x64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S2000000_d1 : S2000000x64.ReducesTo [1] S2000000
  h_S_ : 0 < S_.numel
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S2000000x64 : S_.BroadcastsInDim S2000000x64 (![] : Fin 0 → Fin S2000000x64.rank)
  dot_S2000000x64_S64x64_S2000000x64_1_1_0_0_n_n_wf : DotDims.WF S2000000x64 S64x64 S2000000x64 [1] [1] [0] [0] [] []

variable [Facts₀]

def dot_S2000000x64_S64x64_S2000000x64_1_1_0_0_n_n : DotDims S2000000x64 S64x64 S2000000x64 where
  lhsContracting := [1]
  rhsContracting := [1]
  lhsNonContracting := [0]
  rhsNonContracting := [0]
  lhsBatch := []
  rhsBatch := []
  wf := dot_S2000000x64_S64x64_S2000000x64_1_1_0_0_n_n_wf

class Facts : Prop extends Facts₀ where

variable [Facts]
-- ==== Proof.LinearNorm.lean ====
/-
  One row of a linear layer followed by layer normalisation and a leaky rectifier, on the extended reals.

  For a row `x : Fin 64 → EReal`, a weight matrix `W` (output feature by input feature), a bias `b` and the
  normalisation's scale `g` and shift `s`:

    y c   = (∑ k, x k * W c k) + b c                      the linear layer
    μ     = (∑ j, y j) / 64                               the row's mean
    d c   = y c - μ                                       the centred row
    v     = (∑ j, d j * d j) / 64                         the row's variance
    z c   = d c * rsqrt (v + ε) * g c + s c               normalised, scaled and shifted
    out c = z c            if z c ≥ 0
          = 0.2 * z c      otherwise                      the leaky rectifier

  The three float literals (64, ε and 0.2) stay as their binary words: both programs print the same words, so their
  values are never needed. `rowsOut` is this function applied to every row of an `[N, 64]` array.
-/
import Idealize.ShloMosaic.PureOps.Ideal
import Idealize.ShloMosaic.Lib.ValueIdx

noncomputable section

namespace Cert.LinearNorm

open Idealize.ShloMosaic Idealize.ShloMosaic.ValueIdx

/-- The float word of 64, the number of features a row statistic is divided by. -/
abbrev w64 : EReal := Ideal.ofBits .f32 0x42800000#32
/-- The float word of the variance's guard ε (the f32 nearest to 1e-5). -/
abbrev wEps : EReal := Ideal.ofBits .f32 0x3727C5AC#32
/-- The float word of the rectifier's slope (the f32 nearest to 0.2). -/
abbrev wSlope : EReal := Ideal.ofBits .f32 0x3E4CCCCD#32
/-- The float word of zero, the rectifier's threshold. -/
abbrev wZero : EReal := Ideal.ofBits .f32 0x00000000#32

/-- The linear layer's output feature `c` of a row: the row against row `c` of the weights, plus the bias. -/
def linear (x : Fin 64 → EReal) (W : Fin 64 → Fin 64 → EReal) (b : Fin 64 → EReal) (c : Fin 64) : EReal :=
  (∑ k : Fin 64, x k * W c k) + b c

/-- A row's mean over its 64 features. -/
def mean (y : Fin 64 → EReal) : EReal := Ideal.div (∑ j : Fin 64, y j) w64

/-- A row less its mean. -/
def centred (y : Fin 64 → EReal) (c : Fin 64) : EReal := y c - mean y

/-- The reciprocal standard deviation of a row: `rsqrt` of the mean of the centred row's squares plus ε. -/
def invStd (y : Fin 64 → EReal) : EReal :=
  Ideal.rsqrt (mean (fun j => centred y j * centred y j) + wEps)

/-- The normalised row, scaled by `g` and shifted by `s`. -/
def normalised (y g s : Fin 64 → EReal) (c : Fin 64) : EReal := centred y c * invStd y * g c + s c

/-- The leaky rectifier: `z` itself where `z ≥ 0`, the slope times `z` elsewhere. -/
def leaky (z : EReal) : EReal := Scalar.select (Ideal.cmp .oge z wZero) z (wSlope * z)

/-- One row through the whole chain. -/
def rowOut (x : Fin 64 → EReal) (W : Fin 64 → Fin 64 → EReal) (b g s : Fin 64 → EReal) (c : Fin 64) : EReal :=
  leaky (normalised (linear x W b) g s c)

/-- Every row of an `[N, 64]` array through the chain: entry `(p, c)` depends on row `p` of `x` alone, on all of
    `W`, and on the three feature vectors. -/
def rowsOut {N : ℕ} (x : (⟨2, ![N, 64]⟩ : Shape).Idx → EReal) (W : (⟨2, ![64, 64]⟩ : Shape).Idx → EReal)
    (b g s : (⟨1, ![64]⟩ : Shape).Idx → EReal) : (⟨2, ![N, 64]⟩ : Shape).Idx → EReal := fun i =>
  rowOut (fun k => x (ix2 (i 0) k)) (fun c k => W (ix2 c k)) (fun c => b (ix1 c)) (fun c => g (ix1 c))
    (fun c => s (ix1 c)) (i 1)

end Cert.LinearNorm

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KernelRows.lean ====
/-
  The kernel body's result, read at an index of the block.

  At one grid point the body loads a block of 8000 rows of the input, the whole weight matrix and the three feature
  rows, and stores one vector: the rows through the linear layer (a product with the transposed weights into a zero
  accumulator, plus the bias row), the layer normalisation with keepdims row statistics (a lane sum kept as a
  column and repeated along the 64 features), and the leaky rectifier. The two changes of float format in front of
  the product are the identity on the extended reals. Read at `(p, c)` each stage depends on row `p` of the block
  alone and is the matching function of `Cert.LinearNorm` applied to that row, so the stored vector at `(p, c)` is
  `rowOut` of row `p`.
-/
import proofs.«178443_j73607149518999_2_alg».proof.Proof.Gen.KernelIdeal.Skeleton
import proofs.«178443_j73607149518999_2_alg».proof.Proof.LinearNorm
import proofs.«178443_j73607149518999_2_alg».proof.Proof.LibKeepdims
import proofs.«178443_j73607149518999_2_alg».proof.Proof.LibColumnBroadcast
import proofs.«178443_j73607149518999_2_alg».proof.Proof.LibRowColDot
import Idealize.ShloMosaic.Lib.ValueLayout

noncomputable section

namespace Cert.LinearNorm.Body

open Cert.KernelIdeal Cert.KernelIdeal.Gen Idealize.ShloMosaic Idealize.ShloMosaic.ValueIdx Cert.LinearNorm

/-! ## The body's stages as vectors -/

/-- The block's rows through the linear layer: the product with the transposed weights, plus the bias row. -/
def linearV (x0 : Vec Ideal S8000x64 .f32) (x1 : Vec Ideal S64x64 .f32) (x2 : Vec Ideal S1x64 .f32) :
    FVec Ideal S8000x64 .f32 :=
  addf (matmul dot_S8000x64_S64x64_S8000x64_1_0_0_1_n_n none (truncf .bf16 x0 bitsLt_bf16_f32)
      (transpose S64x64 [1, 0] (truncf .bf16 x1 bitsLt_bf16_f32) transposes_S64x64_p1_0_S64x64)
      (constant (F := Ideal) S8000x64 .f32 0x00000000#32))
    (broadcastTo S8000x64 (shapeCast S1x64 x2 shapeCasts_S1x64_S1x64) broadcasts_S1x64_S8000x64)

/-- Every row's mean, as a column. -/
def meanV (v : FVec Ideal S8000x64 .f32) : FVec Ideal S8000x1 .f32 :=
  divf (shapeCast S8000x1 (multiReduction (F := Ideal) .add [1] S8000 v 0x00000000#32 reduces_S8000x64_S8000 (.inl rfl) rfl)
      shapeCasts_S8000_S8000x1)
    (broadcast S8000x1 (Scalar.ofBits (F := Ideal) .f32 0x42800000#32))

/-- Every row less its mean. -/
def centredV (v : FVec Ideal S8000x64 .f32) : FVec Ideal S8000x64 .f32 :=
  subf v (broadcastTo S8000x64 (meanV v) broadcasts_S8000x1_S8000x64)

/-- Every row's reciprocal standard deviation, as a column. -/
def invStdV (v : FVec Ideal S8000x64 .f32) : FVec Ideal S8000x1 .f32 :=
  rsqrt (addf (meanV (mulf (centredV v) (centredV v)))
    (broadcast S8000x1 (Scalar.ofBits (F := Ideal) .f32 0x3727C5AC#32)))

/-- Every row normalised, scaled by the row `g` and shifted by the row `s`. -/
def normalisedV (v : FVec Ideal S8000x64 .f32) (g s : Vec Ideal S1x64 .f32) : FVec Ideal S8000x64 .f32 :=
  addf (mulf (mulf (centredV v) (broadcastTo S8000x64 (invStdV v) broadcasts_S8000x1_S8000x64))
      (broadcastTo S8000x64 (shapeCast S1x64 g shapeCasts_S1x64_S1x64) broadcasts_S1x64_S8000x64))
    (broadcastTo S8000x64 (shapeCast S1x64 s shapeCasts_S1x64_S1x64) broadcasts_S1x64_S8000x64)

/-- The leaky rectifier on every entry. -/
def leakyV (z : FVec Ideal S8000x64 .f32) : FVec Ideal S8000x64 .f32 :=
  select (cmpf .oge z (broadcast S8000x64 (Scalar.ofBits (F := Ideal) .f32 0x00000000#32))) z
    (mulf (broadcast S8000x64 (Scalar.ofBits (F := Ideal) .f32 0x3E4CCCCD#32)) z)

/-- The vector the body stores is these stages composed. -/
theorem stored_eq (x0 : Vec Ideal S8000x64 .f32) (x1 : Vec Ideal S64x64 .f32) (x2 x3 x4 : Vec Ideal S1x64 .f32) :
    k0_pay1 (F := Ideal) x0 x1 x2 x3 x4 = leakyV (normalisedV (linearV x0 x1 x2) x3 x4) := rfl

/-! ## The product's dimension numbers keep the output's coordinates -/

/-- The left operand is read in the output's row. -/
theorem lhs_row (j : S8000x64.Idx) (q : dot_S8000x64_S64x64_S8000x64_1_0_0_1_n_n.contr.Idx) :
    (dot_S8000x64_S64x64_S8000x64_1_0_0_1_n_n.lhsIdx j q 0).val = (j 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl

/-- The right operand is read in the output's column. -/
theorem rhs_col (j : S8000x64.Idx) (q : dot_S8000x64_S64x64_S8000x64_1_0_0_1_n_n.contr.Idx) :
    (dot_S8000x64_S64x64_S8000x64_1_0_0_1_n_n.rhsIdx j q 1).val = (j 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-! ## The stages at row `p` -/

/-- The linear layer at `(p, c)`: row `p` of the block against row `c` of the weights, plus the bias. -/
theorem linearV_at (x0 : Vec Ideal S8000x64 .f32) (x1 : Vec Ideal S64x64 .f32) (x2 : Vec Ideal S1x64 .f32)
    (p : Fin 8000) (c : Fin 64) :
    linearV x0 x1 x2 (ix2 p c)
      = linear (fun k => x0 (ix2 p k)) (fun c k => x1 (ix2 c k)) (fun c => x2 (ix2 (0 : Fin 1) c)) c := by
  unfold linearV
  rw [addf_apply, Cert.RowColDot.matmul_rowcol _ rfl rfl rfl rfl lhs_row rhs_col,
    broadcastTo_1b_ab_apply, shapeCast_self]
  show (∑ k : Fin 64, x0 (ix2 p k)
      * transpose S64x64 [1, 0] (truncf (F := Ideal) .bf16 x1 bitsLt_bf16_f32) transposes_S64x64_p1_0_S64x64 (ix2 k c))
    + x2 (ix2 (0 : Fin 1) c) = (∑ k : Fin 64, x0 (ix2 p k) * x1 (ix2 c k)) + x2 (ix2 (0 : Fin 1) c)
  refine congrArg (· + x2 (ix2 (0 : Fin 1) c)) (Finset.sum_congr rfl fun k _ => congrArg (x0 (ix2 p k) * ·) ?_)
  exact transpose_ix2_apply (truncf (F := Ideal) .bf16 x1 bitsLt_bf16_f32) transposes_S64x64_p1_0_S64x64 k c

/-- The lane sum of an `[8000, 64]` vector from the zero word, at row `p`: the sum of that row's 64 entries. -/
theorem rowSum_at (v : FVec Ideal S8000x64 .f32) (p : Fin 8000) :
    multiReduction (F := Ideal) .add [1] S8000 v 0x00000000#32 reduces_S8000x64_S8000 (.inl rfl) rfl (ix1 p)
      = ∑ j : Fin 64, v (ix2 p j) :=
  Cert.MemAttn.Layout.multiReduction_add_row v 0x00000000#32 reduces_S8000x64_S8000 (.inl rfl) rfl p

/-- A row's mean, whatever the column's unit coordinate. -/
theorem meanV_at (v : FVec Ideal S8000x64 .f32) (p : Fin 8000) (u : Fin 1) :
    meanV v (ix2 p u) = mean (fun j => v (ix2 p j)) := by
  unfold meanV
  rw [divf_apply, Cert.MemAttn.Layout.shapeCast_a_a1_apply]
  exact congrArg (fun s => Ideal.div s w64) (rowSum_at v p)

/-- The centred row. -/
theorem centredV_at (v : FVec Ideal S8000x64 .f32) (p : Fin 8000) (c : Fin 64) :
    centredV v (ix2 p c) = centred (fun j => v (ix2 p j)) c := by
  unfold centredV
  rw [subf_apply, Cert.WeightUpdate.Layout.broadcastTo_a1_ab_apply, meanV_at]
  rfl

/-- The row's reciprocal standard deviation. -/
theorem invStdV_at (v : FVec Ideal S8000x64 .f32) (p : Fin 8000) (u : Fin 1) :
    invStdV v (ix2 p u) = invStd (fun j => v (ix2 p j)) := by
  show Ideal.rsqrt (meanV (mulf (centredV v) (centredV v)) (ix2 p u) + Ideal.ofBits .f32 0x3727C5AC#32) = _
  rw [meanV_at]
  simp only [mulf_apply, centredV_at]
  rfl

/-- The normalised row, scaled and shifted. -/
theorem normalisedV_at (v : FVec Ideal S8000x64 .f32) (g s : Vec Ideal S1x64 .f32) (p : Fin 8000) (c : Fin 64) :
    normalisedV v g s (ix2 p c)
      = normalised (fun j => v (ix2 p j)) (fun c => g (ix2 (0 : Fin 1) c)) (fun c => s (ix2 (0 : Fin 1) c)) c := by
  unfold normalisedV
  rw [addf_apply, mulf_apply, mulf_apply, centredV_at, Cert.WeightUpdate.Layout.broadcastTo_a1_ab_apply, invStdV_at,
    broadcastTo_1b_ab_apply, broadcastTo_1b_ab_apply, shapeCast_self, shapeCast_self]
  rfl

/-- The rectifier acts entry by entry. -/
theorem leakyV_at (z : FVec Ideal S8000x64 .f32) (i : S8000x64.Idx) : leakyV z i = leaky (z i) := rfl

/-- THE STORED VECTOR at `(p, c)`: row `p` of the block through the whole chain. -/
theorem stored_at (x0 : Vec Ideal S8000x64 .f32) (x1 : Vec Ideal S64x64 .f32) (x2 x3 x4 : Vec Ideal S1x64 .f32)
    (p : Fin 8000) (c : Fin 64) :
    k0_pay1 (F := Ideal) x0 x1 x2 x3 x4 (ix2 p c)
      = rowOut (fun k => x0 (ix2 p k)) (fun c k => x1 (ix2 c k)) (fun c => x2 (ix2 (0 : Fin 1) c))
          (fun c => x3 (ix2 (0 : Fin 1) c)) (fun c => x4 (ix2 (0 : Fin 1) c)) c := by
  rw [stored_eq, leakyV_at, normalisedV_at]
  simp only [linearV_at]
  rfl

end Cert.LinearNorm.Body

end
-- ==== Proof.KernelArray.lean ====
/-
  The kernel's result array, from the blocks its grid points write.

  The grid has 250 points. Point `t` stages rows `8000 t … 8000 t + 7999` of the input, the whole weight matrix,
  and the bias, scale and shift — each a `[64]` vector the host has reshaped to the one-row array `[1, 64]` before
  the launch — and writes the body's vector back to rows `8000 t … 8000 t + 7999` of the result. The body's vector
  at `(p, c)` is row `p` of the staged block through the chain of `Cert.LinearNorm`, and row `p` of that block is row
  `8000 t + p` of the input: so what point `t` writes back is block `t` of `rowsOut` of the argument arrays. Every
  row `r` of the result lies in the block of point `r / 8000`, so the blocks cover the result and it ends holding
  `rowsOut` of the arguments.
-/
import proofs.«178443_j73607149518999_2_alg».proof.Proof.Gen.KernelIdeal.Value
import proofs.«178443_j73607149518999_2_alg».proof.Proof.KernelRows
import Idealize.ShloMosaic.Lib.ValueLayout
import Idealize.ShloMosaic.Lib.StableHlo.Run

set_option maxRecDepth 16384

noncomputable section

namespace Cert.LinearNorm.Blocks

open Cert.KernelIdeal Cert.KernelIdeal.Gen Cert.KernelIdeal.Value Idealize.ShloMosaic Idealize.ShloMosaic.TcCoe
open Idealize.SL.Sem Idealize.ShloMosaic.StableHlo Idealize.ShloMosaic.ValueIdx Cert.LinearNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 250 points: the input's and the result's blocks move down the rows
    with the point, every other window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The feature vectors as the launch finds them: one-row arrays -/

/-- The bias reshaped to `[1, 64]` holds, at `(u, q)`, the bias's entry `q`. -/
theorem bias_row (c : Dev nD) (u : Fin 1) (q : Fin 64) :
    (V m c main_v0 : S1x64.Idx → EReal) (ix2 u q) = (m ((c : Thread nD τ).loc main_arg2) : S64.Idx → EReal) (ix1 q) := by
  have e : (V m c main_v0 : S1x64.Idx → EReal)
      = shapeCast S1x64 (m ((c : Thread nD τ).loc main_arg2) : S64.Idx → EReal) shapeCasts_S64_S1x64 := by
    dsimp only [V, hostOps0]; after_results; rfl
  rw [e]; exact shapeCast_a_1a_apply _ _ u q

/-- The scale reshaped to `[1, 64]` holds, at `(u, q)`, the scale's entry `q`. -/
theorem scale_row (c : Dev nD) (u : Fin 1) (q : Fin 64) :
    (V m c main_v1 : S1x64.Idx → EReal) (ix2 u q) = (m ((c : Thread nD τ).loc main_arg3) : S64.Idx → EReal) (ix1 q) := by
  have e : (V m c main_v1 : S1x64.Idx → EReal)
      = shapeCast S1x64 (m ((c : Thread nD τ).loc main_arg3) : S64.Idx → EReal) shapeCasts_S64_S1x64 := by
    dsimp only [V, hostOps0]; after_results; rfl
  rw [e]; exact shapeCast_a_1a_apply _ _ u q

/-- The shift reshaped to `[1, 64]` holds, at `(u, q)`, the shift's entry `q`. -/
theorem shift_row (c : Dev nD) (u : Fin 1) (q : Fin 64) :
    (V m c main_v2 : S1x64.Idx → EReal) (ix2 u q) = (m ((c : Thread nD τ).loc main_arg4) : S64.Idx → EReal) (ix1 q) := by
  have e : (V m c main_v2 : S1x64.Idx → EReal)
      = shapeCast S1x64 (m ((c : Thread nD τ).loc main_arg4) : S64.Idx → EReal) shapeCasts_S64_S1x64 := by
    dsimp only [V, hostOps0]; after_results; rfl
  rw [e]; exact shapeCast_a_1a_apply _ _ u q

/-! ## The staged blocks at a point -/

/-- Row `p` of the input's block at point `t` is row `8000 t + p` of the input. -/
theorem input_block (c : Dev nD) (t : Fin cfg0.N) (p : Fin 8000) (k : Fin 64) (r : Fin 2000000)
    (hr : r.val = t.val * 8000 + p.val) :
    (iblk m c 0 t : Vec Ideal S8000x64 .f32) (ix2 p k)
      = (m ((c : Thread nD τ).loc main_arg0) : S2000000x64.Idx → EReal) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8000 + 1 * p.val = r.val; omega
  | ⟨1, _⟩ => show win0_0.index t (1 : Fin 2) * 64 + 1 * k.val = k.val; omega

/-- The weights' block at every point is the whole matrix. -/
theorem weight_block (c : Dev nD) (t : Fin cfg0.N) (a b : Fin 64) :
    (iblk m c 1 t : Vec Ideal S64x64 .f32) (ix2 a b)
      = (m ((c : Thread nD τ).loc main_arg1) : S64x64.Idx → EReal) (ix2 a b) := by
  obtain ⟨-, -, e0, e1, -⟩ := idx_facts t
  unfold iblk
  rw [View.read_apply]
  show V m c main_arg1 _ = _
  rw [V_main_arg1]
  congr 1
  funext x
  apply Fin.ext
  match x with
  | ⟨0, _⟩ => show win0_1.index t (0 : Fin 2) * 64 + 1 * a.val = a.val; omega
  | ⟨1, _⟩ => show win0_1.index t (1 : Fin 2) * 64 + 1 * b.val = b.val; omega

/-- The bias's block at every point is the bias. -/
theorem bias_block (c : Dev nD) (t : Fin cfg0.N) (q : Fin 64) :
    (iblk m c 2 t : Vec Ideal S1x64 .f32) (ix2 (0 : Fin 1) q)
      = (m ((c : Thread nD τ).loc main_arg2) : S64.Idx → EReal) (ix1 q) := by
  obtain ⟨-, -, -, -, e0, e1, -⟩ := idx_facts t
  unfold iblk
  rw [View.read_apply]
  refine Eq.trans ?_ (bias_row m c (0 : Fin 1) q)
  show V m c main_v0 _ = V m c main_v0 _
  congr 1
  funext x
  apply Fin.ext
  match x with
  | ⟨0, _⟩ => show win0_2.index t (0 : Fin 2) * 1 + 1 * 0 = 0; omega
  | ⟨1, _⟩ => show win0_2.index t (1 : Fin 2) * 64 + 1 * q.val = q.val; omega

/-- The scale's block at every point is the scale. -/
theorem scale_block (c : Dev nD) (t : Fin cfg0.N) (q : Fin 64) :
    (iblk m c 3 t : Vec Ideal S1x64 .f32) (ix2 (0 : Fin 1) q)
      = (m ((c : Thread nD τ).loc main_arg3) : S64.Idx → EReal) (ix1 q) := by
  obtain ⟨-, -, -, -, -, -, e0, e1, -⟩ := idx_facts t
  unfold iblk
  rw [View.read_apply]
  refine Eq.trans ?_ (scale_row m c (0 : Fin 1) q)
  show V m c main_v1 _ = V m c main_v1 _
  congr 1
  funext x
  apply Fin.ext
  match x with
  | ⟨0, _⟩ => show win0_3.index t (0 : Fin 2) * 1 + 1 * 0 = 0; omega
  | ⟨1, _⟩ => show win0_3.index t (1 : Fin 2) * 64 + 1 * q.val = q.val; omega

/-- The shift's block at every point is the shift. -/
theorem shift_block (c : Dev nD) (t : Fin cfg0.N) (q : Fin 64) :
    (iblk m c 4 t : Vec Ideal S1x64 .f32) (ix2 (0 : Fin 1) q)
      = (m ((c : Thread nD τ).loc main_arg4) : S64.Idx → EReal) (ix1 q) := by
  obtain ⟨-, -, -, -, -, -, -, -, e0, e1, -⟩ := idx_facts t
  unfold iblk
  rw [View.read_apply]
  refine Eq.trans ?_ (shift_row m c (0 : Fin 1) q)
  show V m c main_v2 _ = V m c main_v2 _
  congr 1
  funext x
  apply Fin.ext
  match x with
  | ⟨0, _⟩ => show win0_4.index t (0 : Fin 2) * 1 + 1 * 0 = 0; omega
  | ⟨1, _⟩ => show win0_4.index t (1 : Fin 2) * 64 + 1 * q.val = q.val; omega

/-! ## The result array -/

/-- What the result array ends holding: every row of the input through the chain. -/
abbrev result (c : Dev nD) : S2000000x64.Idx → EReal :=
  rowsOut (N := 2000000) (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S8000x64) hz, View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  have ht : t.val < 250 := lt_of_lt_of_eq t.isLt N_0
  obtain ⟨r, hr⟩ : ∃ r : Fin 2000000, r.val = t.val * 8000 + p.val :=
    ⟨⟨t.val * 8000 + p.val, by have := p.isLt; omega⟩, rfl⟩
  obtain ⟨-, -, -, -, -, -, -, -, -, -, e0, e1⟩ := idx_facts t
  have hemb : ((cfg0.win 5).blk t).view.emb (ix2 p q) = ix2 r q := by
    funext a
    apply Fin.ext
    match a with
    | ⟨0, _⟩ => show win0_5.index t (0 : Fin 2) * 8000 + 1 * p.val = r.val; omega
    | ⟨1, _⟩ => show win0_5.index t (1 : Fin 2) * 64 + 1 * q.val = q.val; omega
  show k0_pay1 (F := Ideal) (iblk m c 0 t) (iblk m c 1 t) (iblk m c 2 t) (iblk m c 3 t) (iblk m c 4 t) (ix2 p q)
    = result m c (((cfg0.win 5).blk t).view.emb (ix2 p q))
  rw [hemb]
  refine (Body.stored_at (iblk m c 0 t) (iblk m c 1 t) (iblk m c 2 t) (iblk m c 3 t) (iblk m c 4 t) p q).trans ?_
  simp only [input_block m c t p _ r hr, weight_block m c t, bias_block m c t, scale_block m c t, shift_block m c t]
  rfl

/-- An index of the result is in point `t`'s block iff each coordinate is in the block's range on its axis. -/
theorem mem_blk (t : Fin cfg0.N) (i : S2000000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v3).slice (win0_5.rect t)).set ↔ _
  rw [View.set_slice_whole, Rect.mem_set_unit]
  exact Iff.rfl

/-- Every index of the result is in the block of the point its row falls to. -/
theorem cover (i : S2000000x64.Idx) :
    ∃ t : Fin cfg0.N, (cfg0.win 5).flush t = true ∧ i ∈ ((cfg0.win 5).blk t).view.set := by
  have hi0 : (i 0).val < 2000000 := (i 0).isLt
  have hi1 : (i 1).val < 64 := (i 1).isLt
  have hN : cfg0.N = 250 := N_0
  obtain ⟨t, ht⟩ : ∃ t : Fin cfg0.N, t.val = (i 0).val / 8000 := ⟨⟨(i 0).val / 8000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 64 ≤ (i 1).val ∧ (i 1).val < win0_5.index t (1 : Fin 2) * 64 + 64
    omega

/-- THE RESULT ARRAY after the run is `result`. -/
theorem final (c : Dev nD) : (dats m 0 c).arrAt 5 cfg0.N = result m c :=
  (dats m 0 c).arrAt_eq_of_cover 5 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.LinearNorm.Blocks

end
-- ==== Proof.ReferenceRows.lean ====
/-
  The reference program's result, read at an index.

  The reference computes the linear layer, the layer normalisation and the leaky rectifier on the whole
  `[2000000, 64]` array with keepdims row statistics: each row statistic is a `[2000000]` vector placed as a column
  and repeated along the 64 features. Read at an entry `(p, c)`, every stage depends on row `p` alone, and is the
  corresponding function of `Cert.LinearNorm` applied to that row — the host's sums start from the zero word, which
  is the extended real 0. So the reference's result array is `rowsOut` of the five float arguments.
-/
import proofs.«178443_j73607149518999_2_alg».proof.Proof.Gen.ReferenceIdeal.Read
import proofs.«178443_j73607149518999_2_alg».proof.Proof.LinearNorm

noncomputable section

namespace Cert.LinearNorm.Reference

open Cert.ReferenceIdeal Cert.ReferenceIdeal.Read Idealize.ShloMosaic Idealize.ShloMosaic.ValueIdx Cert.LinearNorm

variable (x0 : (⟨S2000000x64, .f32⟩ : BufTy).Contents (Elt Ideal)) (x1 : (⟨S64x64, .f32⟩ : BufTy).Contents (Elt Ideal))
  (x2 x3 x4 : (⟨S64, .f32⟩ : BufTy).Contents (Elt Ideal))

/-! ## Where each layout operation reads its operand, at indices given by coordinates -/

/-- The product's left factor at output `(p, c)` and contraction coordinate `k` is the input's entry `(p, k)`. -/
theorem lhs_at (p : Fin 2000000) (c k : Fin 64) : lidx_main_v0 (ix2 p c) k = ix2 p k :=
  funext fun a => match a with | ⟨0, _⟩ => rfl | ⟨1, _⟩ => rfl
/-- Its right factor is the weights' entry `(c, k)`: both operands are contracted on their last axis. -/
theorem rhs_at (p : Fin 2000000) (c k : Fin 64) : ridx_main_v0 (ix2 p c) k = ix2 c k :=
  funext fun a => match a with | ⟨0, _⟩ => rfl | ⟨1, _⟩ => rfl
/-- A `[64]` vector placed as the row `[1, 64]` is read at its entry `c`. -/
theorem row_at (u : Fin 1) (c : Fin 64) : idx_main_v1 (ix2 u c) = ix1 c :=
  funext fun a => match a with | ⟨0, _⟩ => rfl
/-- A row repeated along the 2000000 rows is read at `(0, c)`. -/
theorem rows_at (p : Fin 2000000) (c : Fin 64) : idx_main_v2 (ix2 p c) = ix2 (0 : Fin 1) c :=
  funext fun a => match a with | ⟨0, _⟩ => rfl | ⟨1, _⟩ => rfl
/-- A sum over the features reads, at row `p` and summation coordinate `k`, the entry `(p, k)`. -/
theorem summand_at (p : Fin 2000000) (k : Fin 64) : idx_main_v4 (ix1 p) k = ix2 p k :=
  funext fun a => match a with | ⟨0, _⟩ => rfl | ⟨1, _⟩ => rfl
/-- A `[2000000]` vector placed as a column is read at its entry `p`. -/
theorem col_at (p : Fin 2000000) (u : Fin 1) : idx_main_v5 (ix2 p u) = ix1 p :=
  funext fun a => match a with | ⟨0, _⟩ => rfl
/-- A column repeated along the 64 features is read at `(p, 0)`. -/
theorem cols_at (p : Fin 2000000) (c : Fin 64) : idx_main_v8 (ix2 p c) = ix2 p (0 : Fin 1) :=
  funext fun a => match a with | ⟨0, _⟩ => rfl | ⟨1, _⟩ => rfl

/-! ## The stages, at row `p` -/

/-- Row `p` of the linear layer's output, as a function of the feature. -/
abbrev y (p : Fin 2000000) : Fin 64 → EReal :=
  linear (fun k => x0 (ix2 p k)) (fun c k => x1 (ix2 c k)) (fun c => x2 (ix1 c))

/-- The linear layer: the product with the weights plus the bias row. -/
theorem linear_at (p : Fin 2000000) (c : Fin 64) : val_main_v3 (F := Ideal) x0 x1 x2 (ix2 p c) = y x0 x1 x2 p c := by
  rw [val_main_v3_apply, val_main_v0_apply, val_main_v2_apply, val_main_v1_apply, rows_at, row_at]
  simp only [lhs_at, rhs_at]
  rfl

/-- The sum of row `p` of the linear layer's output. -/
theorem sum_at (p : Fin 2000000) : val_main_v4 (F := Ideal) x0 x1 x2 (ix1 p) = ∑ j : Fin 64, y x0 x1 x2 p j := by
  rw [val_main_v4_apply, val_main_cst_apply]
  simp only [summand_at, linear_at]
  rw [Ideal.ofBits_def, Ideal.ofBits_zero_f32, zero_add]

/-- The row's mean, kept as a one-entry column. -/
theorem mean_at (p : Fin 2000000) (u : Fin 1) : val_main_v7 (F := Ideal) x0 x1 x2 (ix2 p u) = mean (y x0 x1 x2 p) := by
  rw [val_main_v7_apply, val_main_v5_apply, val_main_v6_apply, val_main_cst_0_apply, col_at, sum_at]
  rfl

/-- The centred row (the copy that is squared). -/
theorem centred_at (p : Fin 2000000) (c : Fin 64) :
    val_main_v9 (F := Ideal) x0 x1 x2 (ix2 p c) = centred (y x0 x1 x2 p) c := by
  rw [val_main_v9_apply, val_main_v8_apply, cols_at, linear_at, mean_at]
  rfl

/-- The centred row (the copy that is normalised): the same value. -/
theorem centred_at' (p : Fin 2000000) (c : Fin 64) :
    val_main_v16 (F := Ideal) x0 x1 x2 (ix2 p c) = centred (y x0 x1 x2 p) c := by
  rw [val_main_v16_apply, val_main_v15_apply]
  rw [show idx_main_v15 (ix2 p c) = ix2 p (0 : Fin 1) from cols_at p c, linear_at, mean_at]
  rfl

/-- The sum of the centred row's squares. -/
theorem sqsum_at (p : Fin 2000000) :
    val_main_v11 (F := Ideal) x0 x1 x2 (ix1 p) = ∑ j : Fin 64, centred (y x0 x1 x2 p) j * centred (y x0 x1 x2 p) j := by
  rw [val_main_v11_apply, val_main_cst_1_apply]
  simp only [show ∀ k, idx_main_v11 (ix1 p) k = ix2 p k from summand_at p, val_main_v10_apply, centred_at]
  rw [Ideal.ofBits_def, Ideal.ofBits_zero_f32, zero_add]
  rfl

/-- The reciprocal standard deviation of row `p`, kept as a one-entry column. -/
theorem invStd_at (p : Fin 2000000) (u : Fin 1) :
    val_main_v19 (F := Ideal) x0 x1 x2 (ix2 p u) = invStd (y x0 x1 x2 p) := by
  rw [val_main_v19_apply, val_main_v18_apply, val_main_v14_apply, val_main_v12_apply, val_main_v13_apply,
    val_main_cst_2_apply, val_main_v17_apply, val_main_cst_3_apply]
  rw [show idx_main_v12 (ix2 p u) = ix1 p from col_at p u, sqsum_at]
  rfl

/-- The normalised row, scaled and shifted. -/
theorem normalised_at (p : Fin 2000000) (c : Fin 64) :
    val_main_v27 (F := Ideal) x0 x1 x2 x3 x4 (ix2 p c)
      = normalised (y x0 x1 x2 p) (fun c => x3 (ix1 c)) (fun c => x4 (ix1 c)) c := by
  rw [val_main_v27_apply, val_main_v24_apply, val_main_v21_apply, val_main_v20_apply, val_main_v23_apply,
    val_main_v22_apply, val_main_v26_apply, val_main_v25_apply]
  rw [show idx_main_v20 (ix2 p c) = ix2 p (0 : Fin 1) from cols_at p c,
    show idx_main_v23 (ix2 p c) = ix2 (0 : Fin 1) c from rows_at p c,
    show idx_main_v26 (ix2 p c) = ix2 (0 : Fin 1) c from rows_at p c,
    show idx_main_v22 (ix2 (0 : Fin 1) c) = ix1 c from row_at 0 c,
    show idx_main_v25 (ix2 (0 : Fin 1) c) = ix1 c from row_at 0 c, centred_at', invStd_at]
  rfl

/-- The rectified result. -/
theorem out_at (p : Fin 2000000) (c : Fin 64) :
    val_main_v32 (F := Ideal) x0 x1 x2 x3 x4 (ix2 p c)
      = rowOut (fun k => x0 (ix2 p k)) (fun c k => x1 (ix2 c k)) (fun c => x2 (ix1 c)) (fun c => x3 (ix1 c))
          (fun c => x4 (ix1 c)) c := by
  rw [val_main_v32_apply, val_main_v29_apply, val_main_v31_apply, val_main_v28_apply, val_main_v30_apply,
    val_main_cst_4_apply, val_main_cst_5_apply, normalised_at]
  rfl

/-- The reference's result array is every row through the chain. -/
theorem result_eq : val_main_v32 (F := Ideal) x0 x1 x2 x3 x4 = rowsOut x0 x1 x2 x3 x4 := by
  funext i
  obtain ⟨p, c, rfl⟩ : ∃ (p : Fin 2000000) (c : Fin 64), i = ix2 p c := ⟨i 0, i 1, eq_ix2 i⟩
  exact out_at x0 x1 x2 x3 x4 p c

end Cert.LinearNorm.Reference

end
-- ==== Proof.lean ====
/-
  The proof of `Cert.Claim`: a linear layer, layer normalisation and a leaky rectifier over 2000000 rows of 64
  features, as one fused kernel on a grid of 250 row blocks, against the whole-array reference.

  On the extended reals both programs compute, for every row `x` of the input,
    y = x Wᵀ + b,   d = y - mean y,   z = d · rsqrt (mean (d · d) + ε) · g + s,   out = z where z ≥ 0, 0.2 · z elsewhere
  with the same float words for 64, ε, 0.2 and 0 (`Cert.LinearNorm.rowsOut`). The two sides differ only in layout:
  the kernel works block by block on one-row feature arrays, with the weights transposed in front of the product and
  two changes of float format that are the identity here (Proof/KernelRows.lean, Proof/KernelArray.lean); the reference
  works on the whole array with row statistics kept as columns (Proof/ReferenceRows.lean). No law of arithmetic is
  needed beyond `0 + a = a` for the host sums' initial value, so the inputs' finiteness is not used. The graph-id
  argument enters neither program's arithmetic.

  The three frames are the generated ones (the reference's is its generated run with the result dropped); the kernel's
  idealisation rewrote no operation, so `preserves` is `True`.
-/
import proofs.«178443_j73607149518999_2_alg».proof.Defs
import proofs.«178443_j73607149518999_2_alg».proof.Proof.Gen.Kernel
import proofs.«178443_j73607149518999_2_alg».proof.Proof.Gen.Kernel.Skeleton
import proofs.«178443_j73607149518999_2_alg».proof.Proof.Gen.Kernel.Launch
import proofs.«178443_j73607149518999_2_alg».proof.Proof.Gen.Kernel.Points
import proofs.«178443_j73607149518999_2_alg».proof.Proof.Gen.Kernel.Frame
import proofs.«178443_j73607149518999_2_alg».proof.Proof.Gen.KernelIdeal
import proofs.«178443_j73607149518999_2_alg».proof.Proof.Gen.KernelIdeal.Skeleton
import proofs.«178443_j73607149518999_2_alg».proof.Proof.Gen.KernelIdeal.Launch
import proofs.«178443_j73607149518999_2_alg».proof.Proof.Gen.KernelIdeal.Points
import proofs.«178443_j73607149518999_2_alg».proof.Proof.Gen.KernelIdeal.Frame
import proofs.«178443_j73607149518999_2_alg».proof.Proof.Gen.ReferenceIdeal
import proofs.«178443_j73607149518999_2_alg».proof.Proof.Gen.Pre_finite_inputs
import proofs.«178443_j73607149518999_2_alg».proof.Proof.Gen.KernelIdeal.Value
import proofs.«178443_j73607149518999_2_alg».proof.Proof.Gen.ReferenceIdeal.Run
import proofs.«178443_j73607149518999_2_alg».proof.Proof.Gen.ReferenceIdeal.Read
import proofs.«178443_j73607149518999_2_alg».proof.Proof.KernelArray
import proofs.«178443_j73607149518999_2_alg».proof.Proof.ReferenceRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `rowsOut` of the five float
    arguments: the kernel's blocks cover it, and the reference's stages read at an index are the same row functions. -/
theorem algebraic : Cert.algebraic_KernelIdeal_ReferenceIdeal := by
  intro m ρ m' ρ' _ hagree
  refine ⟨fun c => Cert.LinearNorm.Blocks.result m c, Cert.LinearNorm.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.LinearNorm.Reference.result_eq,
    (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
